-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : FVec F S512x256 .f32) (main_arg2 : FVec F S256 .f32) (main_arg3 : FVec F S256x128 .f32) (main_arg4 : FVec F S128 .f32) (main_arg5 : IVec S800000 32) (main_arg6 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S800000x256 : Shape := ⟨2, ![800000, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 65
  | .vmem => 17
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S512x256, .bf16⟩
  | .hbm, ⟨30, _⟩ => ⟨S256x128, .bf16⟩
  | .hbm, ⟨31, _⟩ => ⟨S1x256, .f32⟩
  | .hbm, ⟨32, _⟩ => ⟨S50000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x256, .bf16⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x1, .f32⟩
  | .local _ .vmem, ⟨13, _⟩ => ⟨S2000x1, .f32⟩
  | .local _ .vmem, ⟨14, _⟩ => ⟨S256x128, .bf16⟩
  | .local _ .vmem, ⟨15, _⟩ => ⟨S2000x128, .f32⟩
  | .local _ .vmem, ⟨16, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S50000x512, .f32⟩
  | .hbm, ⟨30, _⟩ => ⟨S50000x512, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result named.

  The program is nine stretches: five of host operations, the first pipelined call, one of host operations, the second
  pipelined call, and a last one of host operations. Folding the stretches over the launch memory gives the buffer
  contents at the end of the run; every weakly fair execution terminates, faults nowhere, ends with every unscoped
  buffer at those contents, and so ends with the result buffer at the fold's value there and the seven arguments as
  launched.
-/
import proofs.«147666_j64493228917351_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this statement, which takes unfolding definitions inside types
set_option backward.isDefEq.respectTransparency.types false in
/-- Every weakly fair execution terminates without a fault; the result buffer ends at the last boundary's contents and
    the arguments end as launched. -/
theorem run : θ_run defs (onTc (τ := τ) (main (F := F))) ⟨m, fun _ => 0, ρ⟩ (fun r => ∀ c : Dev nD,
      r.2.mem ((c.tc : Thread nD τ).loc main_v42) = W9 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v42 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ValueRun

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.Spec.lean ====
/-
  The two dense layers as functions of their arrays, entry by entry, on the extended reals.

  `layer1 x s w` at `(n, c)` is `(Σ_q x[n, q] · w[q, c]) · s[n]`: the features projected by the first weight matrix,
  each row scaled by its source normaliser. `layer2 a d b s w` at `(n, c)` is
  `(Σ_q max (a[n, q] · d[n] + b[q]) 0 · w[q, c]) · s[n]`: the aggregated rows scaled by the target normaliser, biased,
  clamped below at zero, projected by the second weight matrix and scaled by the source normaliser.
-/
import Idealize.ShloMosaic.PureOps.Ideal
import Idealize.ShloMosaic.Lib.ValueIdx

noncomputable section

open scoped BigOperators

namespace Cert.Spec

open Idealize.ShloMosaic Idealize.ShloMosaic.ValueIdx

/-- Entry `(n, c)` of the first layer's projected and scaled rows. -/
def layer1 (x : (⟨2, ![50000, 512]⟩ : Shape).Idx → EReal) (s : (⟨2, ![50000, 1]⟩ : Shape).Idx → EReal)
    (w : (⟨2, ![512, 256]⟩ : Shape).Idx → EReal) : (⟨2, ![50000, 256]⟩ : Shape).Idx → EReal :=
  fun i => (∑ q : Fin 512, x (ix2 (i 0 : Fin 50000) q) * w (ix2 q (i 1 : Fin 256))) * s (ix2 (i 0 : Fin 50000) (0 : Fin 1))

theorem layer1_apply (x : (⟨2, ![50000, 512]⟩ : Shape).Idx → EReal) (s : (⟨2, ![50000, 1]⟩ : Shape).Idx → EReal)
    (w : (⟨2, ![512, 256]⟩ : Shape).Idx → EReal) (n : Fin 50000) (c : Fin 256) :
    layer1 x s w (ix2 n c) = (∑ q : Fin 512, x (ix2 n q) * w (ix2 q c)) * s (ix2 n (0 : Fin 1)) := rfl

/-- One entry of the hidden layer: the aggregated entry scaled by the target normaliser, plus the bias, clamped below at
    zero (the zero spelt by its f32 word). -/
def hidden (a d b : EReal) : EReal := max (a * d + b) (Ideal.ofBits .f32 0x00000000#32)

/-- Entry `(n, c)` of the second layer's projected and scaled rows. -/
def layer2 (a : (⟨2, ![50000, 256]⟩ : Shape).Idx → EReal) (d : (⟨2, ![50000, 1]⟩ : Shape).Idx → EReal)
    (b : (⟨2, ![1, 256]⟩ : Shape).Idx → EReal) (s : (⟨2, ![50000, 1]⟩ : Shape).Idx → EReal)
    (w : (⟨2, ![256, 128]⟩ : Shape).Idx → EReal) : (⟨2, ![50000, 128]⟩ : Shape).Idx → EReal :=
  fun i => (∑ q : Fin 256, hidden (a (ix2 (i 0 : Fin 50000) q)) (d (ix2 (i 0 : Fin 50000) (0 : Fin 1))) (b (ix2 (0 : Fin 1) q))
      * w (ix2 q (i 1 : Fin 128))) * s (ix2 (i 0 : Fin 50000) (0 : Fin 1))

theorem layer2_apply (a : (⟨2, ![50000, 256]⟩ : Shape).Idx → EReal) (d : (⟨2, ![50000, 1]⟩ : Shape).Idx → EReal)
    (b : (⟨2, ![1, 256]⟩ : Shape).Idx → EReal) (s : (⟨2, ![50000, 1]⟩ : Shape).Idx → EReal)
    (w : (⟨2, ![256, 128]⟩ : Shape).Idx → EReal) (n : Fin 50000) (c : Fin 128) :
    layer2 a d b s w (ix2 n c)
      = (∑ q : Fin 256, hidden (a (ix2 n q)) (d (ix2 n (0 : Fin 1))) (b (ix2 (0 : Fin 1) q)) * w (ix2 q c)) * s (ix2 n (0 : Fin 1)) := rfl

end Cert.Spec

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Layer1.lean ====
/-
  The first pipelined call, as one function of its arrays.

  The call walks the 50000 node rows in 25 blocks of 2000. At block `t` it multiplies rows `2000·t … 2000·t+1999` of
  the features by the whole weight matrix and scales each product row by that row's normaliser. So the array it leaves
  is, at entry `(n, c)`, `(Σ_q x[n, q] · w[q, c]) · s[n]`: a function of the three arrays as the call finds them.
-/
import proofs.«147666_j64493228917351_2_alg».proof.Proof.Gen.KernelIdeal.Frame
import proofs.«147666_j64493228917351_2_alg».proof.Proof.Spec
import proofs.«147666_j64493228917351_2_alg».proof.Proof.LibPlainDot
import proofs.«147666_j64493228917351_2_alg».proof.Proof.LibColumn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The array the call leaves, as the specification's first layer of the arrays it finds. -/
abbrev G1 (x : Vec Ideal S50000x512 .f32) (s : Vec Ideal S50000x1 .f32) (w : Vec Ideal S512x256 .bf16) :
    Vec Ideal S50000x256 .f32 := Cert.Spec.layer1 x s w

theorem G1_apply (x : Vec Ideal S50000x512 .f32) (s : Vec Ideal S50000x1 .f32) (w : Vec Ideal S512x256 .bf16)
    (n : Fin 50000) (c : Fin 256) :
    G1 x s w (ix2 n c) = (∑ q : Fin 512, x (ix2 n q) * w (ix2 q c)) * s (ix2 n (0 : Fin 1)) := rfl

/-- The product's dimension numbers are those of a plain rows-by-columns product. -/
theorem plain : Cert.PlainDot.IsPlain dot_S2000x512_S512x256_S2000x256_1_0_0_1_n_n := ⟨rfl, rfl, rfl, rfl, rfl, rfl⟩

/-- What one block's body stores, at row `p` and column `c` of the block. -/
theorem pay_apply (x0 : Vec Ideal S2000x512 .f32) (w : Vec Ideal S512x256 .bf16) (s : Vec Ideal S2000x1 .f32)
    (p : Fin 2000) (c : Fin 256) :
    k0_pay1 (F := Ideal) x0 w s (ix2 p c) = (∑ q : Fin 512, x0 (ix2 p q) * w (ix2 q c)) * s (ix2 p (0 : Fin 1)) := by
  unfold k0_pay1
  refine congrArg₂ (fun a b : EReal => a * b) ?_ ?_
  · refine (Cert.PlainDot.matmul_zero_apply plain none _ _ p c).trans ?_
    rw [shapeCast_self]
    rfl
  · refine (Cert.Column.broadcastTo_a1_ab_apply _ _ p c).trans ?_
    rw [shapeCast_self]

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, block column 0; the
    weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the features' block `t` is row `2000·t + p` of the features. -/
theorem read_x (c : Dev nD) (t : Fin cfg0.N) (p : Fin 2000) (q : Fin 512) (P : Fin 50000) (hP : P.val = t.val * 2000 + p.val) :
    iblk0 V c 0 t (ix2 p q) = V c main_arg0 (ix2 P q) := by
  obtain ⟨e0, e1, -⟩ := idx_facts t
  show V c main_arg0 (((cfg0.win 0).blk t).view.emb (ix2 p q)) = V c main_arg0 (ix2 P q)
  refine congrArg (V c main_arg0) (funext fun a => Fin.ext ?_)
  match a with
  | ⟨0, _⟩ => show win0_0.index t (0 : Fin 2) * 2000 + 1 * p.val = P.val; omega
  | ⟨1, _⟩ => show win0_0.index t (1 : Fin 2) * 512 + 1 * q.val = q.val; omega

/-- Row `p` of the normaliser column's block `t` is row `2000·t + p` of the column. -/
theorem read_s (c : Dev nD) (t : Fin cfg0.N) (p : Fin 2000) (P : Fin 50000) (hP : P.val = t.val * 2000 + p.val) :
    iblk0 V c 1 t (ix2 p (0 : Fin 1)) = V c main_v10 (ix2 P (0 : Fin 1)) := by
  obtain ⟨-, -, e0, e1, -⟩ := idx_facts t
  show V c main_v10 (((cfg0.win 1).blk t).view.emb (ix2 p (0 : Fin 1))) = V c main_v10 (ix2 P (0 : Fin 1))
  refine congrArg (V c main_v10) (funext fun a => Fin.ext ?_)
  match a with
  | ⟨0, _⟩ => show win0_1.index t (0 : Fin 2) * 2000 + 1 * p.val = P.val; omega
  | ⟨1, _⟩ => show win0_1.index t (1 : Fin 2) * 1 + 1 * 0 = 0; omega

/-- The weights' one block is the weights. -/
theorem read_w (c : Dev nD) (t : Fin cfg0.N) (q : Fin 512) (l : Fin 256) :
    iblk0 V c 2 t (ix2 q l) = V c main_v13 (ix2 q l) := by
  obtain ⟨-, -, -, -, e0, e1, -⟩ := idx_facts t
  show V c main_v13 (((cfg0.win 2).blk t).view.emb (ix2 q l)) = V c main_v13 (ix2 q l)
  refine congrArg (V c main_v13) (funext fun a => Fin.ext ?_)
  match a with
  | ⟨0, _⟩ => show win0_2.index t (0 : Fin 2) * 512 + 1 * q.val = q.val; omega
  | ⟨1, _⟩ => show win0_2.index t (1 : Fin 2) * 256 + 1 * l.val = l.val; omega

/-- What point `t` writes back is block `t` of `G1` of the arrays as the call finds them. -/
theorem flushed_eq (c : Dev nD) (t : Fin cfg0.N) :
    (dat0 V c).flushed 3 t
      = ((cfg0.win 3).blk t).view.read (Elt Ideal) (G1 (V c main_arg0) (V c main_v10) (V c main_v13)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x256) hz, View.ld_unit_zero (S := S2000x1) hz]
  funext j
  obtain ⟨p, l, rfl⟩ : ∃ (p : Fin 2000) (l : Fin 256), j = ix2 p l := ⟨j 0, j 1, eq_ix2 j⟩
  obtain ⟨-, -, -, -, -, -, e0, e1⟩ := idx_facts t
  have ht : t.val < 25 := t.isLt
  have hp : p.val < 2000 := p.isLt
  let P : Fin 50000 := ⟨t.val * 2000 + p.val, by omega⟩
  have hemb : ((cfg0.win 3).blk t).view.emb (ix2 p l) = ix2 P l := funext fun a => Fin.ext (by
    match a with
    | ⟨0, _⟩ => show win0_3.index t (0 : Fin 2) * 2000 + 1 * p.val = t.val * 2000 + p.val; omega
    | ⟨1, _⟩ => show win0_3.index t (1 : Fin 2) * 256 + 1 * l.val = l.val; omega)
  show k0_pay1 (F := Ideal) (iblk0 V c 0 t) (iblk0 V c 2 t) (iblk0 V c 1 t) (ix2 p l)
    = G1 (V c main_arg0) (V c main_v10) (V c main_v13) (((cfg0.win 3).blk t).view.emb (ix2 p l))
  rw [hemb, G1_apply]
  refine (pay_apply (iblk0 V c 0 t) (iblk0 V c 2 t) (iblk0 V c 1 t) p l).trans ?_
  rw [read_s V c t p P rfl]
  refine congrArg (fun a : EReal => a * V c main_v10 (ix2 P (0 : Fin 1))) (Finset.sum_congr rfl fun q _ => ?_)
  rw [read_x V c t p q P rfl, read_w V c t q l]

/-- An index of the array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Every row lies in the block of the point numbered by the row's quotient by 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨-, -, -, -, -, -, e0, e1⟩ := idx_facts t
  have tv : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE ARRAY the call leaves: `G1` of the three arrays as it finds them. -/
theorem final (c : Dev nD) :
    (dat0 V c).arrAt 3 cfg0.N = G1 (V c main_arg0) (V c main_v10) (V c main_v13) :=
  (dat0 V c).arrAt_eq_of_cover 3 (G1 (V c main_arg0) (V c main_v10) (V c main_v13)) (fun t _ => flushed_eq V c t) cover

end

end Cert.KernelIdeal.Layer1

end
-- ==== Proof.Layer2.lean ====
/-
  The second pipelined call, as one function of its arrays.

  The call walks the 50000 node rows in 25 blocks of 2000. At block `t` it takes rows `2000·t … 2000·t+1999` of the
  aggregated first layer, scales each row by its target normaliser, adds the bias row, clamps below at zero, multiplies
  by the whole second weight matrix, and scales each product row by its source normaliser. So the array it leaves is,
  at entry `(n, c)`, `(Σ_q max (a[n, q] · d[n] + b[q]) 0 · w[q, c]) · s[n]`.
-/
import proofs.«147666_j64493228917351_2_alg».proof.Proof.Gen.KernelIdeal.Frame
import proofs.«147666_j64493228917351_2_alg».proof.Proof.Spec
import proofs.«147666_j64493228917351_2_alg».proof.Proof.LibPlainDot
import proofs.«147666_j64493228917351_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.Spec (hidden)

/-- The array the call leaves, as the specification's second layer of the arrays it finds. -/
abbrev G2 (a : Vec Ideal S50000x256 .f32) (d : Vec Ideal S50000x1 .f32) (b : Vec Ideal S1x256 .f32)
    (s : Vec Ideal S50000x1 .f32) (w : Vec Ideal S256x128 .bf16) : Vec Ideal S50000x128 .f32 :=
  Cert.Spec.layer2 a d b s w

theorem G2_apply (a : Vec Ideal S50000x256 .f32) (d : Vec Ideal S50000x1 .f32) (b : Vec Ideal S1x256 .f32)
    (s : Vec Ideal S50000x1 .f32) (w : Vec Ideal S256x128 .bf16) (n : Fin 50000) (c : Fin 128) :
    G2 a d b s w (ix2 n c)
      = (∑ q : Fin 256, hidden (a (ix2 n q)) (d (ix2 n (0 : Fin 1))) (b (ix2 (0 : Fin 1) q)) * w (ix2 q c)) * s (ix2 n (0 : Fin 1)) := rfl

/-- The product's dimension numbers are those of a plain rows-by-columns product. -/
theorem plain : Cert.PlainDot.IsPlain dot_S2000x256_S256x128_S2000x128_1_0_0_1_n_n := ⟨rfl, rfl, rfl, rfl, rfl, rfl⟩

/-- What one block's body stores, at row `p` and column `c` of the block. -/
theorem pay_apply (a0 : Vec Ideal S2000x256 .f32) (d0 : Vec Ideal S2000x1 .f32) (b0 : Vec Ideal S1x256 .f32)
    (w : Vec Ideal S256x128 .bf16) (s0 : Vec Ideal S2000x1 .f32) (p : Fin 2000) (c : Fin 128) :
    k1_pay1 (F := Ideal) a0 d0 b0 w s0 (ix2 p c)
      = (∑ q : Fin 256, hidden (a0 (ix2 p q)) (d0 (ix2 p (0 : Fin 1))) (b0 (ix2 (0 : Fin 1) q)) * w (ix2 q c)) * s0 (ix2 p (0 : Fin 1)) := by
  unfold k1_pay1
  refine congrArg₂ (fun x y : EReal => x * y) ?_ ?_
  · refine (Cert.PlainDot.matmul_zero_apply plain none _ _ p c).trans ?_
    refine Finset.sum_congr rfl fun q _ => ?_
    refine congrArg₂ (fun x y : EReal => x * y) ?_ ?_
    · show max (shapeCast S2000x256 a0 shapeCasts_S2000x256_S2000x256 (ix2 p q)
            * broadcastTo S2000x256 (shapeCast S2000x1 d0 shapeCasts_S2000x1_S2000x1) broadcasts_S2000x1_S2000x256 (ix2 p q)
            + broadcastTo S2000x256 (shapeCast S1x256 b0 shapeCasts_S1x256_S1x256) broadcasts_S1x256_S2000x256 (ix2 p q))
          (Ideal.ofBits .f32 0x00000000#32) = hidden _ _ _
      rw [shapeCast_self, shapeCast_self, shapeCast_self, Cert.Column.broadcastTo_a1_ab_apply, broadcastTo_1b_ab_apply]
      rfl
    · rw [shapeCast_self]
  · refine (Cert.Column.broadcastTo_a1_ab_apply _ _ p c).trans ?_
    rw [shapeCast_self]

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-blocked windows sit at block row `t`, block column 0; the bias
    row and the weights at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated rows' block `t` is row `2000·t + p` of them. -/
theorem read_a (c : Dev nD) (t : Fin cfg1.N) (p : Fin 2000) (q : Fin 256) (P : Fin 50000) (hP : P.val = t.val * 2000 + p.val) :
    iblk1 V c 0 t (ix2 p q) = V c main_v26 (ix2 P q) := by
  obtain ⟨e0, e1, -⟩ := idx_facts t
  show V c main_v26 (((cfg1.win 0).blk t).view.emb (ix2 p q)) = V c main_v26 (ix2 P q)
  refine congrArg (V c main_v26) (funext fun a => Fin.ext ?_)
  match a with
  | ⟨0, _⟩ => show win1_0.index t (0 : Fin 2) * 2000 + 1 * p.val = P.val; omega
  | ⟨1, _⟩ => show win1_0.index t (1 : Fin 2) * 256 + 1 * q.val = q.val; omega

/-- Row `p` of the target normaliser column's block `t` is row `2000·t + p` of the column. -/
theorem read_d (c : Dev nD) (t : Fin cfg1.N) (p : Fin 2000) (P : Fin 50000) (hP : P.val = t.val * 2000 + p.val) :
    iblk1 V c 1 t (ix2 p (0 : Fin 1)) = V c main_v12 (ix2 P (0 : Fin 1)) := by
  obtain ⟨-, -, e0, e1, -⟩ := idx_facts t
  show V c main_v12 (((cfg1.win 1).blk t).view.emb (ix2 p (0 : Fin 1))) = V c main_v12 (ix2 P (0 : Fin 1))
  refine congrArg (V c main_v12) (funext fun a => Fin.ext ?_)
  match a with
  | ⟨0, _⟩ => show win1_1.index t (0 : Fin 2) * 2000 + 1 * p.val = P.val; omega
  | ⟨1, _⟩ => show win1_1.index t (1 : Fin 2) * 1 + 1 * 0 = 0; omega

/-- The bias row's one block is the bias row. -/
theorem read_b (c : Dev nD) (t : Fin cfg1.N) (q : Fin 256) :
    iblk1 V c 2 t (ix2 (0 : Fin 1) q) = V c main_v15 (ix2 (0 : Fin 1) q) := by
  obtain ⟨-, -, -, -, e0, e1, -⟩ := idx_facts t
  show V c main_v15 (((cfg1.win 2).blk t).view.emb (ix2 (0 : Fin 1) q)) = V c main_v15 (ix2 (0 : Fin 1) q)
  refine congrArg (V c main_v15) (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

/-- Row `p` of the source normaliser column's block `t` is row `2000·t + p` of the column. -/
theorem read_s (c : Dev nD) (t : Fin cfg1.N) (p : Fin 2000) (P : Fin 50000) (hP : P.val = t.val * 2000 + p.val) :
    iblk1 V c 3 t (ix2 p (0 : Fin 1)) = V c main_v10 (ix2 P (0 : Fin 1)) := by
  obtain ⟨-, -, -, -, -, -, e0, e1, -⟩ := idx_facts t
  show V c main_v10 (((cfg1.win 3).blk t).view.emb (ix2 p (0 : Fin 1))) = V c main_v10 (ix2 P (0 : Fin 1))
  refine congrArg (V c main_v10) (funext fun a => Fin.ext ?_)
  match a with
  | ⟨0, _⟩ => show win1_3.index t (0 : Fin 2) * 2000 + 1 * p.val = P.val; omega
  | ⟨1, _⟩ => show win1_3.index t (1 : Fin 2) * 1 + 1 * 0 = 0; omega

/-- The weights' one block is the weights. -/
theorem read_w (c : Dev nD) (t : Fin cfg1.N) (q : Fin 256) (l : Fin 128) :
    iblk1 V c 4 t (ix2 q l) = V c main_v14 (ix2 q l) := by
  obtain ⟨-, -, -, -, -, -, -, -, e0, e1, -⟩ := idx_facts t
  show V c main_v14 (((cfg1.win 4).blk t).view.emb (ix2 q l)) = V c main_v14 (ix2 q l)
  refine congrArg (V c main_v14) (funext fun a => Fin.ext ?_)
  match a with
  | ⟨0, _⟩ => show win1_4.index t (0 : Fin 2) * 256 + 1 * q.val = q.val; omega
  | ⟨1, _⟩ => show win1_4.index t (1 : Fin 2) * 128 + 1 * l.val = l.val; omega

/-- What point `t` writes back is block `t` of `G2` of the arrays as the call finds them. -/
theorem flushed_eq (c : Dev nD) (t : Fin cfg1.N) :
    (dat1 V c).flushed 5 t
      = ((cfg1.win 5).blk t).view.read (Elt Ideal)
          (G2 (V c main_v26) (V c main_v12) (V c main_v15) (V c main_v10) (V c main_v14)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S1x256) hz,
    View.ld_unit_zero (S := S256x128) hz]
  funext j
  obtain ⟨p, l, rfl⟩ : ∃ (p : Fin 2000) (l : Fin 128), j = ix2 p l := ⟨j 0, j 1, eq_ix2 j⟩
  obtain ⟨-, -, -, -, -, -, -, -, -, -, e0, e1⟩ := idx_facts t
  have ht : t.val < 25 := t.isLt
  have hp : p.val < 2000 := p.isLt
  let P : Fin 50000 := ⟨t.val * 2000 + p.val, by omega⟩
  have hemb : ((cfg1.win 5).blk t).view.emb (ix2 p l) = ix2 P l := funext fun a => Fin.ext (by
    match a with
    | ⟨0, _⟩ => show win1_5.index t (0 : Fin 2) * 2000 + 1 * p.val = t.val * 2000 + p.val; omega
    | ⟨1, _⟩ => show win1_5.index t (1 : Fin 2) * 128 + 1 * l.val = l.val; omega)
  show k1_pay1 (F := Ideal) (iblk1 V c 0 t) (iblk1 V c 1 t) (iblk1 V c 2 t) (iblk1 V c 4 t) (iblk1 V c 3 t) (ix2 p l)
    = G2 (V c main_v26) (V c main_v12) (V c main_v15) (V c main_v10) (V c main_v14) (((cfg1.win 5).blk t).view.emb (ix2 p l))
  rw [hemb, G2_apply]
  refine (pay_apply (iblk1 V c 0 t) (iblk1 V c 1 t) (iblk1 V c 2 t) (iblk1 V c 4 t) (iblk1 V c 3 t) p l).trans ?_
  rw [read_s V c t p P rfl, read_d V c t p P rfl]
  refine congrArg (fun a : EReal => a * V c main_v10 (ix2 P (0 : Fin 1))) (Finset.sum_congr rfl fun q _ => ?_)
  rw [read_a V c t p q P rfl, read_b V c t q, read_w V c t q l]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v27).slice (win1_5.rect t)).set ↔ _
  rw [View.set_slice_whole, Rect.mem_set_unit]
  exact Iff.rfl

/-- Every row lies in the block of the point numbered by the row's quotient by 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨-, -, -, -, -, -, -, -, -, -, e0, e1⟩ := idx_facts t
  have tv : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY the call leaves: `G2` of the five arrays as it finds them. -/
theorem final (c : Dev nD) :
    (dat1 V c).arrAt 5 cfg1.N = G2 (V c main_v26) (V c main_v12) (V c main_v15) (V c main_v10) (V c main_v14) :=
  (dat1 V c).arrAt_eq_of_cover 5 (G2 (V c main_v26) (V c main_v12) (V c main_v15) (V c main_v10) (V c main_v14))
    (fun t _ => flushed_eq V c t) cover

end

end Cert.KernelIdeal.Layer2

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.LibRowScale.lean ====
/-
  A ROW FACTOR MOVED ACROSS A CONTRACTION, on the extended reals (general: any finite index type, no program needed).

  A matrix product's row is scaled by a factor `s` either after the contraction, `(Σ_q x q · w q) · s`, or on the left
  operand before it, `Σ_q (x q · s) · w q`. On the extended reals the two agree whenever `s` is non-negative and not
  `+∞`: such a factor distributes over a finite sum whatever the summands are (infinite ones of either sign included),
  and the rest is commutativity and associativity of the product. The degree normaliser `1/√(max 1 d)` is such a
  factor for every extended-real `d`: its argument is at least one, so it lies in `[0, 1]`.
-/
import proofs.«147666_j64493228917351_2_alg».proof.Proof.LibGcnLaw
import Idealize.ShloMosaic.PureOps.Ideal

noncomputable section

open scoped BigOperators

namespace Cert.RowScale

open Idealize.ShloMosaic

/-- Scaling a contraction's result by a non-negative factor other than `+∞` is scaling its left operand. -/
theorem sum_mul_scale {ι : Type} [Fintype ι] (s : EReal) (h0 : 0 ≤ s) (ht : s ≠ ⊤) (x w : ι → EReal) :
    (∑ q, x q * w q) * s = ∑ q, (x q * s) * w q := by
  rw [mul_comm, Cert.GcnLaw.mul_sum Finset.univ s h0 ht]
  refine Finset.sum_congr rfl fun q _ => ?_
  rw [mul_comm s, mul_assoc, mul_comm (w q) s, ← mul_assoc]

/-- The f32 word of `1.0` is the number one. -/
theorem ofBits_one : Ideal.ofBits .f32 0x3F800000#32 = (1 : EReal) := by
  simp [Ideal.ofBits, Ideal.ieee, -EReal.coe_mul]; norm_num

/-- One is above `-∞`. -/
theorem not_one_le_bot : ¬ (1 : EReal) ≤ ⊥ :=
  not_le.mpr (by exact_mod_cast EReal.bot_lt_coe (1 : ℝ))

/-- The reciprocal square root of a number that is at least one is non-negative. -/
theorem rsqrt_nonneg_of_one_le (y : EReal) (hy : 1 ≤ y) : 0 ≤ Ideal.rsqrt y := by
  induction y using EReal.rec with
  | bot => exact absurd hy not_one_le_bot
  | top => simp
  | coe r =>
    have hr : (1 : ℝ) ≤ r := by exact_mod_cast hy
    have hr0 : 0 < r := lt_of_lt_of_le one_pos hr
    rw [Ideal.rsqrt_coe, if_neg (not_lt.mpr hr0.le), if_neg hr0.ne']
    exact_mod_cast (inv_nonneg.mpr (Real.sqrt_nonneg r))

/-- The reciprocal square root of a number that is at least one is not `+∞`. -/
theorem rsqrt_ne_top_of_one_le (y : EReal) (hy : 1 ≤ y) : Ideal.rsqrt y ≠ ⊤ := by
  induction y using EReal.rec with
  | bot => exact absurd hy not_one_le_bot
  | top => simp
  | coe r =>
    have hr : (1 : ℝ) ≤ r := by exact_mod_cast hy
    have hr0 : 0 < r := lt_of_lt_of_le one_pos hr
    rw [Ideal.rsqrt_coe, if_neg (not_lt.mpr hr0.le), if_neg hr0.ne']
    exact EReal.coe_ne_top _

/-- The normaliser of a degree `d`: `1/√(max 1 d)`, the one spelt by its f32 word. -/
def normaliser (d : EReal) : EReal := Ideal.rsqrt (max (Ideal.ofBits .f32 0x3F800000#32) d)

theorem normaliser_nonneg (d : EReal) : 0 ≤ normaliser d :=
  rsqrt_nonneg_of_one_le _ (by rw [ofBits_one]; exact le_max_left _ _)

theorem normaliser_ne_top (d : EReal) : normaliser d ≠ ⊤ :=
  rsqrt_ne_top_of_one_le _ (by rw [ofBits_one]; exact le_max_left _ _)

end Cert.RowScale

end
-- ==== Proof.RefLayers.lean ====
/-
  The reference's two dense layers are the specification's.

  The reference scales the left operand's rows by the source normaliser BEFORE each product:
  `Σ_q (x[n, q] · s[n]) · w[q, c]`. The specification scales the product's rows AFTER it: `(Σ_q x[n, q] · w[q, c]) · s[n]`.
  The normaliser `s[n] = 1/√(max 1 deg)` is non-negative and not `+∞`, so the two agree on the extended reals.
-/
import proofs.«147666_j64493228917351_2_alg».proof.Proof.Gen.ReferenceIdeal.Read
import proofs.«147666_j64493228917351_2_alg».proof.Proof.Spec
import proofs.«147666_j64493228917351_2_alg».proof.Proof.LibRowScale

noncomputable section

open scoped BigOperators

namespace Cert.ReferenceIdeal.RefLayers

open Cert.ReferenceIdeal Cert.ReferenceIdeal.Read
open Idealize.ShloMosaic Idealize.ShloMosaic.ValueIdx

/-- An edge-endpoint array: one node number per edge. -/
abbrev Ints : Type := (⟨S800000, .i32⟩ : BufTy).Contents (Elt Ideal)

/-- The source normaliser's column at row `n` is the normaliser of that node's out-degree. -/
theorem src_norm (x5 : Ints) (n : Fin 50000) :
    val_main_v10 (F := Ideal) x5 (ix2 n (0 : Fin 1)) = Cert.RowScale.normaliser (val_main_v3 (F := Ideal) x5 (ix1 n)) := by
  have e : idx_main_v10 (ix2 n (0 : Fin 1)) = ix1 n := funext fun a => Fin.ext (by match a with | ⟨0, _⟩ => rfl)
  rw [val_main_v10_apply, e, val_main_v9_apply, val_main_v4_apply, val_main_call0_v1_apply, val_main_call0_v0_apply,
    val_main_cst_1_apply]
  generalize val_main_v3 (F := Ideal) x5 (ix1 n) = d
  rfl

/-- The target normaliser's column at row `n` is the normaliser of that node's in-degree. -/
theorem dst_norm (x6 : Ints) (n : Fin 50000) :
    val_main_v12 (F := Ideal) x6 (ix2 n (0 : Fin 1)) = Cert.RowScale.normaliser (val_main_v7 (F := Ideal) x6 (ix1 n)) := by
  have e : idx_main_v12 (ix2 n (0 : Fin 1)) = ix1 n := funext fun a => Fin.ext (by match a with | ⟨0, _⟩ => rfl)
  rw [val_main_v12_apply, e, val_main_v11_apply, val_main_v8_apply, val_main_call1_v1_apply, val_main_call1_v0_apply,
    val_main_cst_3_apply]
  generalize val_main_v7 (F := Ideal) x6 (ix1 n) = d
  rfl

theorem src_norm_nonneg (x5 : Ints) (n : Fin 50000) : 0 ≤ val_main_v10 (F := Ideal) x5 (ix2 n (0 : Fin 1)) := by
  rw [src_norm]; exact Cert.RowScale.normaliser_nonneg _

theorem src_norm_ne_top (x5 : Ints) (n : Fin 50000) : val_main_v10 (F := Ideal) x5 (ix2 n (0 : Fin 1)) ≠ ⊤ := by
  rw [src_norm]; exact Cert.RowScale.normaliser_ne_top _

/-- THE FIRST LAYER: the reference's product of the pre-scaled features with the first weights is the specification's
    product scaled afterwards. -/
theorem layer1_eq (x0 : (⟨S50000x512, .f32⟩ : BufTy).Contents (Elt Ideal)) (x1 : (⟨S512x256, .f32⟩ : BufTy).Contents (Elt Ideal))
    (x5 : Ints) :
    val_main_v15 (F := Ideal) x0 x1 x5 = Cert.Spec.layer1 x0 (val_main_v10 (F := Ideal) x5) x1 := by
  funext i
  obtain ⟨n, c, rfl⟩ : ∃ (n : Fin 50000) (c : Fin 256), i = ix2 n c := ⟨i 0, i 1, eq_ix2 i⟩
  rw [val_main_v15_apply, Cert.Spec.layer1_apply,
    Cert.RowScale.sum_mul_scale _ (src_norm_nonneg x5 n) (src_norm_ne_top x5 n)]
  refine Finset.sum_congr rfl fun q _ => ?_
  have el : lidx_main_v15 (ix2 n c) q = ix2 n q := funext fun a => Fin.ext (by match a with | ⟨0, _⟩ => rfl | ⟨1, _⟩ => rfl)
  have er : ridx_main_v15 (ix2 n c) q = ix2 q c := funext fun a => Fin.ext (by match a with | ⟨0, _⟩ => rfl | ⟨1, _⟩ => rfl)
  have es : idx_main_v13 (ix2 n q) = ix2 n (0 : Fin 1) := funext fun a => Fin.ext (by match a with | ⟨0, _⟩ => rfl | ⟨1, _⟩ => rfl)
  rw [el, er, val_main_v14_apply, val_main_v13_apply, es]
  rfl

/-- THE SECOND LAYER: the reference's product of the pre-scaled hidden rows with the second weights is the
    specification's product scaled afterwards, over the reference's own aggregated first layer; the bias row `b` is any
    `[1, 256]` layout of the bias vector. -/
theorem layer2_eq (x0 : (⟨S50000x512, .f32⟩ : BufTy).Contents (Elt Ideal)) (x1 : (⟨S512x256, .f32⟩ : BufTy).Contents (Elt Ideal))
    (x2 : (⟨S256, .f32⟩ : BufTy).Contents (Elt Ideal)) (x3 : (⟨S256x128, .f32⟩ : BufTy).Contents (Elt Ideal)) (x5 x6 : Ints)
    (b : (⟨2, ![1, 256]⟩ : Shape).Idx → EReal) (hb : ∀ q : Fin 256, b (ix2 (0 : Fin 1) q) = x2 (ix1 q)) :
    val_main_v34 (F := Ideal) x0 x1 x2 x3 x5 x6
      = Cert.Spec.layer2 (val_main_v25 (F := Ideal) x0 x1 x5 x6) (val_main_v12 (F := Ideal) x6) b (val_main_v10 (F := Ideal) x5) x3 := by
  funext i
  obtain ⟨n, c, rfl⟩ : ∃ (n : Fin 50000) (c : Fin 128), i = ix2 n c := ⟨i 0, i 1, eq_ix2 i⟩
  rw [val_main_v34_apply, Cert.Spec.layer2_apply,
    Cert.RowScale.sum_mul_scale _ (src_norm_nonneg x5 n) (src_norm_ne_top x5 n)]
  refine Finset.sum_congr rfl fun q _ => ?_
  have el : lidx_main_v34 (ix2 n c) q = ix2 n q := funext fun a => Fin.ext (by match a with | ⟨0, _⟩ => rfl | ⟨1, _⟩ => rfl)
  have er : ridx_main_v34 (ix2 n c) q = ix2 q c := funext fun a => Fin.ext (by match a with | ⟨0, _⟩ => rfl | ⟨1, _⟩ => rfl)
  have es : idx_main_v32 (ix2 n q) = ix2 n (0 : Fin 1) := funext fun a => Fin.ext (by match a with | ⟨0, _⟩ => rfl | ⟨1, _⟩ => rfl)
  have ed : idx_main_v26 (ix2 n q) = ix2 n (0 : Fin 1) := funext fun a => Fin.ext (by match a with | ⟨0, _⟩ => rfl | ⟨1, _⟩ => rfl)
  have eb : idx_main_v28 (idx_main_v29 (ix2 n q)) = ix1 q := funext fun a => Fin.ext (by match a with | ⟨0, _⟩ => rfl)
  rw [el, er, val_main_v33_apply, val_main_v32_apply, es, val_main_v31_apply, val_main_v30_apply, val_main_v27_apply,
    val_main_v26_apply, ed, val_main_v29_apply, val_main_v28_apply, eb, val_main_call2_v0_apply, val_main_call2_cst_apply, hb]
  rfl

end Cert.ReferenceIdeal.RefLayers

end
-- ==== Proof.KernelValue.lean ====
/-
  What the idealized kernel's result buffer holds at the end of the run, as the reference's function of the arguments.

  The run's buffer contents are a fold through nine stretches. Walking that fold back from the result buffer:
  the last stretch gathers the second call's rows along the edges, sums them into their target nodes, scales by the
  target normaliser and adds the second bias; the second call leaves the specification's second layer of the
  aggregated first layer; the stretch between the calls gathers and sums the first call's rows; the first call leaves
  the specification's first layer of the features; and the opening stretches compute the two degree normalisers from
  the edge lists. Every host stretch is, operation for operation, the reference's own; the two calls are the
  reference's two products by the layer laws. So the result is the reference's result term of the same arguments.
-/
import proofs.«147666_j64493228917351_2_alg».proof.Proof.Gen.KernelIdeal.Frame
import proofs.«147666_j64493228917351_2_alg».proof.Proof.Gen.ReferenceIdeal.Read
import proofs.«147666_j64493228917351_2_alg».proof.Proof.LibHostWalk
import proofs.«147666_j64493228917351_2_alg».proof.Proof.Layer1
import proofs.«147666_j64493228917351_2_alg».proof.Proof.Layer2
import proofs.«147666_j64493228917351_2_alg».proof.Proof.RefLayers
import Idealize.ShloMosaic.Lib.ValueLayout
import Idealize.ShloMosaic.PureOps.Ideal

set_option maxRecDepth 16384

noncomputable section

namespace Cert.KernelIdeal.KernelValue

open Cert.KernelIdeal Cert.KernelIdeal.Gen
open Idealize.ShloMosaic Idealize.ShloMosaic.TcCoe Idealize.ShloMosaic.StableHlo Idealize.ShloMosaic.ValueIdx Idealize.SL.Sem
open Cert.HostWalk
open Cert.ReferenceIdeal.Read (val_main_v10 val_main_v12 val_main_v15 val_main_v25 val_main_v34 val_main_v49)

variable (m : (ℓ : Loc nD τ sig) → Buf (Elt Ideal) ℓ) (ρ : Dev nD → PrngReg)

/-! ## The contents when the first call is entered -/

/-- The five opening stretches, as one nested fold over the launch memory. -/
theorem entry0 (c : Dev nD) : W5 (F := Ideal) m ρ c
    = StableHlo.after hostOps0_4 (StableHlo.after hostOps0_3 (StableHlo.after hostOps0_2 (StableHlo.after hostOps0_1
        (StableHlo.after hostOps0 (W0 m ρ c))))) := rfl

theorem W5_arg0 (c : Dev nD) : W5 (F := Ideal) m ρ c (Proc.devRef .tc main_arg0) = m ((c : Thread nD τ).loc main_arg0) := by
  rw [entry0]; walk_back []
theorem W5_arg4 (c : Dev nD) : W5 (F := Ideal) m ρ c (Proc.devRef .tc main_arg4) = m ((c : Thread nD τ).loc main_arg4) := by
  rw [entry0]; walk_back []
theorem W5_arg5 (c : Dev nD) : W5 (F := Ideal) m ρ c (Proc.devRef .tc main_arg5) = m ((c : Thread nD τ).loc main_arg5) := by
  rw [entry0]; walk_back []
theorem W5_arg6 (c : Dev nD) : W5 (F := Ideal) m ρ c (Proc.devRef .tc main_arg6) = m ((c : Thread nD τ).loc main_arg6) := by
  rw [entry0]; walk_back []

/-- The source normaliser column is the reference's. -/
theorem W5_v10 (c : Dev nD) : W5 (F := Ideal) m ρ c (Proc.devRef .tc main_v10)
    = val_main_v10 (F := Ideal) (m ((c : Thread nD τ).loc main_arg5)) := by
  rw [entry0]; walk_back []; rfl

/-- The target normaliser column is the reference's. -/
theorem W5_v12 (c : Dev nD) : W5 (F := Ideal) m ρ c (Proc.devRef .tc main_v12)
    = val_main_v12 (F := Ideal) (m ((c : Thread nD τ).loc main_arg6)) := by
  rw [entry0]; walk_back []; rfl

/-- The first weights, their format changed: at this instance the same numbers. -/
theorem W5_v13 (c : Dev nD) : (W5 (F := Ideal) m ρ c (Proc.devRef .tc main_v13) : S512x256.Idx → EReal)
    = (m ((c : Thread nD τ).loc main_arg1) : S512x256.Idx → EReal) := by
  rw [entry0]; walk_back []; rfl

/-- The second weights, their format changed. -/
theorem W5_v14 (c : Dev nD) : (W5 (F := Ideal) m ρ c (Proc.devRef .tc main_v14) : S256x128.Idx → EReal)
    = (m ((c : Thread nD τ).loc main_arg3) : S256x128.Idx → EReal) := by
  rw [entry0]; walk_back []; rfl

/-- The first bias as a row. -/
theorem W5_v15 (c : Dev nD) : (W5 (F := Ideal) m ρ c (Proc.devRef .tc main_v15) : S1x256.Idx → EReal)
    = shapeCast S1x256 (m ((c : Thread nD τ).loc main_arg2) : S256.Idx → EReal) shapeCasts_S256_S1x256 := by
  rw [entry0]; walk_back []; rfl

/-! ## After the first call -/

/-- The first call leaves the reference's first product. -/
theorem W6_v16 (c : Dev nD) : W6 (F := Ideal) m ρ c (Proc.devRef .tc main_v16)
    = val_main_v15 (F := Ideal) (m ((c : Thread nD τ).loc main_arg0)) (m ((c : Thread nD τ).loc main_arg1))
        (m ((c : Thread nD τ).loc main_arg5)) := by
  refine (W6_arr m ρ c 3).trans ?_
  rw [Cert.KernelIdeal.Layer1.final (V5 m ρ) c]
  show Cert.Spec.layer1 (W5 m ρ c (Proc.devRef .tc main_arg0)) (W5 m ρ c (Proc.devRef .tc main_v10))
    (W5 m ρ c (Proc.devRef .tc main_v13)) = _
  rw [W5_arg0, W5_v10, W5_v13]
  exact (Cert.ReferenceIdeal.RefLayers.layer1_eq _ _ _).symm

theorem W6_arg4 (c : Dev nD) : W6 (F := Ideal) m ρ c (Proc.devRef .tc main_arg4) = m ((c : Thread nD τ).loc main_arg4) :=
  (W6_of_ne m ρ c main_arg4 (by decide)).trans (W5_arg4 m ρ c)
theorem W6_arg5 (c : Dev nD) : W6 (F := Ideal) m ρ c (Proc.devRef .tc main_arg5) = m ((c : Thread nD τ).loc main_arg5) :=
  (W6_of_ne m ρ c main_arg5 (by decide)).trans (W5_arg5 m ρ c)
theorem W6_arg6 (c : Dev nD) : W6 (F := Ideal) m ρ c (Proc.devRef .tc main_arg6) = m ((c : Thread nD τ).loc main_arg6) :=
  (W6_of_ne m ρ c main_arg6 (by decide)).trans (W5_arg6 m ρ c)
theorem W6_v12 (c : Dev nD) : W6 (F := Ideal) m ρ c (Proc.devRef .tc main_v12)
    = val_main_v12 (F := Ideal) (m ((c : Thread nD τ).loc main_arg6)) :=
  (W6_of_ne m ρ c main_v12 (by decide)).trans (W5_v12 m ρ c)
theorem W6_v14 (c : Dev nD) : (W6 (F := Ideal) m ρ c (Proc.devRef .tc main_v14) : S256x128.Idx → EReal)
    = (m ((c : Thread nD τ).loc main_arg3) : S256x128.Idx → EReal) :=
  (W6_of_ne m ρ c main_v14 (by decide)).trans (W5_v14 m ρ c)
theorem W6_v15 (c : Dev nD) : (W6 (F := Ideal) m ρ c (Proc.devRef .tc main_v15) : S1x256.Idx → EReal)
    = shapeCast S1x256 (m ((c : Thread nD τ).loc main_arg2) : S256.Idx → EReal) shapeCasts_S256_S1x256 :=
  (W6_of_ne m ρ c main_v15 (by decide)).trans (W5_v15 m ρ c)
/-- The source normaliser column, an input of the first call, is left as found. -/
theorem W6_v10 (c : Dev nD) : W6 (F := Ideal) m ρ c (Proc.devRef .tc main_v10)
    = val_main_v10 (F := Ideal) (m ((c : Thread nD τ).loc main_arg5)) :=
  ((W6_arr m ρ c 1).trans (((dat0 (V5 m ρ) c).arrAt_in 1 rfl _).trans (A_eq0 (V5 m ρ) c 1))).trans (W5_v10 m ρ c)

/-! ## When the second call is entered -/

/-- The stretch between the calls gathers the first call's rows along the edges and sums them into their targets: the
    reference's aggregated first layer. -/
theorem W7_v26 (c : Dev nD) : W7 (F := Ideal) m ρ c (Proc.devRef .tc main_v26)
    = val_main_v25 (F := Ideal) (m ((c : Thread nD τ).loc main_arg0)) (m ((c : Thread nD τ).loc main_arg1))
        (m ((c : Thread nD τ).loc main_arg5)) (m ((c : Thread nD τ).loc main_arg6)) := by
  show StableHlo.after hostOps1 (W6 m ρ c) (Proc.devRef .tc main_v26) = _
  walk_back []
  rw [W6_v16, W6_arg5, W6_arg6]
  rfl

theorem W7_arg4 (c : Dev nD) : W7 (F := Ideal) m ρ c (Proc.devRef .tc main_arg4) = m ((c : Thread nD τ).loc main_arg4) := by
  show StableHlo.after hostOps1 (W6 m ρ c) (Proc.devRef .tc main_arg4) = _
  walk_back []
  exact W6_arg4 m ρ c
theorem W7_arg5 (c : Dev nD) : W7 (F := Ideal) m ρ c (Proc.devRef .tc main_arg5) = m ((c : Thread nD τ).loc main_arg5) := by
  show StableHlo.after hostOps1 (W6 m ρ c) (Proc.devRef .tc main_arg5) = _
  walk_back []
  exact W6_arg5 m ρ c
theorem W7_arg6 (c : Dev nD) : W7 (F := Ideal) m ρ c (Proc.devRef .tc main_arg6) = m ((c : Thread nD τ).loc main_arg6) := by
  show StableHlo.after hostOps1 (W6 m ρ c) (Proc.devRef .tc main_arg6) = _
  walk_back []
  exact W6_arg6 m ρ c
theorem W7_v10 (c : Dev nD) : W7 (F := Ideal) m ρ c (Proc.devRef .tc main_v10)
    = val_main_v10 (F := Ideal) (m ((c : Thread nD τ).loc main_arg5)) := by
  show StableHlo.after hostOps1 (W6 m ρ c) (Proc.devRef .tc main_v10) = _
  walk_back []
  exact W6_v10 m ρ c
theorem W7_v12 (c : Dev nD) : W7 (F := Ideal) m ρ c (Proc.devRef .tc main_v12)
    = val_main_v12 (F := Ideal) (m ((c : Thread nD τ).loc main_arg6)) := by
  show StableHlo.after hostOps1 (W6 m ρ c) (Proc.devRef .tc main_v12) = _
  walk_back []
  exact W6_v12 m ρ c
theorem W7_v14 (c : Dev nD) : (W7 (F := Ideal) m ρ c (Proc.devRef .tc main_v14) : S256x128.Idx → EReal)
    = (m ((c : Thread nD τ).loc main_arg3) : S256x128.Idx → EReal) := by
  show StableHlo.after hostOps1 (W6 m ρ c) (Proc.devRef .tc main_v14) = _
  walk_back []
  exact W6_v14 m ρ c
theorem W7_v15 (c : Dev nD) : (W7 (F := Ideal) m ρ c (Proc.devRef .tc main_v15) : S1x256.Idx → EReal)
    = shapeCast S1x256 (m ((c : Thread nD τ).loc main_arg2) : S256.Idx → EReal) shapeCasts_S256_S1x256 := by
  show StableHlo.after hostOps1 (W6 m ρ c) (Proc.devRef .tc main_v15) = _
  walk_back []
  exact W6_v15 m ρ c

/-! ## After the second call -/

/-- The second call leaves the reference's second product. -/
theorem W8_v27 (c : Dev nD) : W8 (F := Ideal) m ρ c (Proc.devRef .tc main_v27)
    = val_main_v34 (F := Ideal) (m ((c : Thread nD τ).loc main_arg0)) (m ((c : Thread nD τ).loc main_arg1))
        (m ((c : Thread nD τ).loc main_arg2)) (m ((c : Thread nD τ).loc main_arg3))
        (m ((c : Thread nD τ).loc main_arg5)) (m ((c : Thread nD τ).loc main_arg6)) := by
  refine (W8_arr m ρ c 5).trans ?_
  rw [Cert.KernelIdeal.Layer2.final (V7 m ρ) c]
  show Cert.Spec.layer2 (W7 m ρ c (Proc.devRef .tc main_v26)) (W7 m ρ c (Proc.devRef .tc main_v12))
    (W7 m ρ c (Proc.devRef .tc main_v15)) (W7 m ρ c (Proc.devRef .tc main_v10)) (W7 m ρ c (Proc.devRef .tc main_v14)) = _
  rw [W7_v26, W7_v12, W7_v15, W7_v10, W7_v14]
  exact (Cert.ReferenceIdeal.RefLayers.layer2_eq _ _ _ _ _ _ _ (fun q => shapeCast_a_1a_apply _ _ (0 : Fin 1) q)).symm

theorem W8_arg4 (c : Dev nD) : W8 (F := Ideal) m ρ c (Proc.devRef .tc main_arg4) = m ((c : Thread nD τ).loc main_arg4) :=
  (W8_of_ne m ρ c main_arg4 (by decide)).trans (W7_arg4 m ρ c)
theorem W8_arg5 (c : Dev nD) : W8 (F := Ideal) m ρ c (Proc.devRef .tc main_arg5) = m ((c : Thread nD τ).loc main_arg5) :=
  (W8_of_ne m ρ c main_arg5 (by decide)).trans (W7_arg5 m ρ c)
theorem W8_arg6 (c : Dev nD) : W8 (F := Ideal) m ρ c (Proc.devRef .tc main_arg6) = m ((c : Thread nD τ).loc main_arg6) :=
  (W8_of_ne m ρ c main_arg6 (by decide)).trans (W7_arg6 m ρ c)
/-- The target normaliser column, an input of the second call, is left as found. -/
theorem W8_v12 (c : Dev nD) : W8 (F := Ideal) m ρ c (Proc.devRef .tc main_v12)
    = val_main_v12 (F := Ideal) (m ((c : Thread nD τ).loc main_arg6)) :=
  ((W8_arr m ρ c 1).trans (((dat1 (V7 m ρ) c).arrAt_in 1 rfl _).trans (A_eq1 (V7 m ρ) c 1))).trans (W7_v12 m ρ c)

/-! ## The result -/

/-- THE RESULT BUFFER at the end of the run holds the reference's result term of the launch arguments. -/
theorem result_eq (c : Dev nD) : W9 (F := Ideal) m ρ c (Proc.devRef .tc main_v42)
    = val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  show StableHlo.after hostOps2 (W8 m ρ c) (Proc.devRef .tc main_v42) = _
  walk_back []
  rw [W8_v27, W8_v12, W8_arg4, W8_arg5, W8_arg6]
  rfl

end Cert.KernelIdeal.KernelValue

end
-- ==== Proof.lean ====
/- The proof of `Cert.Claim`: a two-layer graph convolution, the kernel's two dense layers in pipelined calls against the
   reference's two host products.

   Both programs compute, from the edge lists, the out-degree and in-degree normalisers `1/√(max 1 deg)`; project the
   node rows by a weight matrix; gather the projected rows along the edges and sum them into their target nodes; scale
   by the target normaliser and add a bias; clamp below at zero; and repeat with the second weight matrix. They differ
   in one place per layer: the reference scales a row by its source normaliser BEFORE the product,
   `Σ_q (x[n, q] · s[n]) · w[q, c]`, the kernel AFTER it, `(Σ_q x[n, q] · w[q, c]) · s[n]`. The normaliser is non-negative
   and never `+∞`, so it distributes over the sum on the extended reals whatever the summands are (Proof/LibRowScale.lean);
   no finiteness of the inputs is used.

   Proof/Spec.lean states the two layers entry by entry. Proof/Layer1.lean and Proof/Layer2.lean show that each
   pipelined call leaves the specification's layer of the arrays it finds (25 row blocks of 2000 tile the 50000 rows).
   Proof/RefLayers.lean shows the reference's products are the same layers. Proof/KernelValue.lean walks the kernel's
   buffer contents back from the result through the host stretches and the two calls to the launch arguments: every
   host stretch is the reference's own, so the result is the reference's result term. Proof/KernelRun.lean is the
   kernel's run with the result buffer named. The frames of the two kernel programs and the reference's run are the
   generated ones; the idealization rewrote nothing, so `preserves` is `True`. -/
import proofs.«147666_j64493228917351_2_alg».proof.Defs
import proofs.«147666_j64493228917351_2_alg».proof.Proof.Gen.Kernel
import proofs.«147666_j64493228917351_2_alg».proof.Proof.Gen.Kernel.Frame
import proofs.«147666_j64493228917351_2_alg».proof.Proof.Gen.KernelIdeal
import proofs.«147666_j64493228917351_2_alg».proof.Proof.Gen.KernelIdeal.Frame
import proofs.«147666_j64493228917351_2_alg».proof.Proof.Gen.ReferenceIdeal
import proofs.«147666_j64493228917351_2_alg».proof.Proof.Gen.ReferenceIdeal.Run
import proofs.«147666_j64493228917351_2_alg».proof.Proof.Gen.ReferenceIdeal.Read
import proofs.«147666_j64493228917351_2_alg».proof.Proof.Gen.Pre_finite_inputs
import proofs.«147666_j64493228917351_2_alg».proof.Proof.KernelRun
import proofs.«147666_j64493228917351_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at the reference's result term of the (agreeing) arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KernelValue.result_eq m ρ c), (h c).2⟩)
    (Cert.KernelIdeal.ValueRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
